-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x2 .f32) (main_arg5 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S20000x128 : Shape := ⟨2, ![20000, 128]⟩
abbrev S20000x16 : Shape := ⟨2, ![20000, 16]⟩
abbrev S6400000x16 : Shape := ⟨2, ![6400000, 16]⟩
abbrev S200000x1 : Shape := ⟨2, ![200000, 1]⟩
abbrev S1x16 : Shape := ⟨2, ![1, 16]⟩
abbrev S200000x2 : Shape := ⟨2, ![200000, 2]⟩
abbrev S20000x2 : Shape := ⟨2, ![20000, 2]⟩
abbrev S6400000x2 : Shape := ⟨2, ![6400000, 2]⟩
abbrev S1x2 : Shape := ⟨2, ![1, 2]⟩

abbrev nBuf : Space → Nat
  | .hbm => 106
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S6400000, .f32⟩
  | .hbm, ⟨12, _⟩ => ⟨S_, .f32⟩
  | .hbm, ⟨13, _⟩ => ⟨S200000, .f32⟩
  | .hbm, ⟨14, _⟩ => ⟨S6400000x1, .i32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S200000, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000, .f32⟩
  | .hbm, ⟨38, _⟩ => ⟨S6400000, .f32⟩
  | .hbm, ⟨39, _⟩ => ⟨S200000, .f32⟩
  | .hbm, ⟨40, _⟩ => ⟨S200000x16, .f32⟩
  | .hbm, ⟨41, _⟩ => ⟨S6400000x1, .f32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S6400000x16, .f32⟩
  | .hbm, ⟨51, _⟩ => ⟨S6400000x16, .f32⟩
  | .hbm, ⟨52, _⟩ => ⟨S6400000x16, .f32⟩
  | .hbm, ⟨53, _⟩ => ⟨S_, .f32⟩
  | .hbm, ⟨54, _⟩ => ⟨S200000x16, .f32⟩
  | .hbm, ⟨55, _⟩ => ⟨S6400000x1, .i32⟩
  | .hbm, ⟨56, _⟩ => ⟨S200000x16, .f32⟩
  | .hbm, ⟨57, _⟩ => ⟨S200000x1, .f32⟩
  | .hbm, ⟨58, _⟩ => ⟨S200000x16, .f32⟩
  | .hbm, ⟨59, _⟩ => ⟨S200000x16, .f32⟩
  | .hbm, ⟨60, _⟩ => ⟨S200000x16, .f32⟩
  | .hbm, ⟨61, _⟩ => ⟨S1x16, .f32⟩
  | .hbm, ⟨62, _⟩ => ⟨S200000x16, .f32⟩
  | .hbm, ⟨63, _⟩ => ⟨S200000x16, .f32⟩
  | .hbm, ⟨64, _⟩ => ⟨S_, .f32⟩
  | .hbm, ⟨65, _⟩ => ⟨S200000x16, .f32⟩
  | .hbm, ⟨66, _⟩ => ⟨S200000x16, .f32⟩
  | .hbm, ⟨67, _⟩ => ⟨S200000x2, .f32⟩
  | .hbm, ⟨68, _⟩ => ⟨S6400000x1, .f32⟩
  | .hbm, ⟨69, _⟩ => ⟨S_, .i32⟩
  | .hbm, ⟨70, _⟩ => ⟨S6400000, .i32⟩
  | .hbm, ⟨71, _⟩ => ⟨S6400000, .i1⟩
  | .hbm, ⟨72, _⟩ => ⟨S_, .i32⟩
  | .hbm, ⟨73, _⟩ => ⟨S6400000, .i32⟩
  | .hbm, ⟨74, _⟩ => ⟨S6400000, .i32⟩
  | .hbm, ⟨75, _⟩ => ⟨S6400000, .i32⟩
  | .hbm, ⟨76, _⟩ => ⟨S6400000x1, .i32⟩
  | .hbm, ⟨77, _⟩ => ⟨S6400000x2, .f32⟩
  | .hbm, ⟨78, _⟩ => ⟨S6400000x2, .f32⟩
  | .hbm, ⟨79, _⟩ => ⟨S6400000x2, .f32⟩
  | .hbm, ⟨80, _⟩ => ⟨S_, .f32⟩
  | .hbm, ⟨81, _⟩ => ⟨S200000x2, .f32⟩
  | .hbm, ⟨82, _⟩ => ⟨S6400000x1, .i32⟩
  | .hbm, ⟨83, _⟩ => ⟨S200000x2, .f32⟩
  | .hbm, ⟨84, _⟩ => ⟨S200000x1, .f32⟩
  | .hbm, ⟨85, _⟩ => ⟨S200000x2, .f32⟩
  | .hbm, ⟨86, _⟩ => ⟨S200000x2, .f32⟩
  | .hbm, ⟨87, _⟩ => ⟨S200000x2, .f32⟩
  | .hbm, ⟨88, _⟩ => ⟨S1x2, .f32⟩
  | .hbm, ⟨89, _⟩ => ⟨S200000x2, .f32⟩
  | .hbm, ⟨90, _⟩ => ⟨S200000x2, .f32⟩
  | .hbm, ⟨91, _⟩ => ⟨S_, .f32⟩
  | .hbm, ⟨92, _⟩ => ⟨S200000, .f32⟩
  | .hbm, ⟨93, _⟩ => ⟨S_, .f32⟩
  | .hbm, ⟨94, _⟩ => ⟨S200000, .f32⟩
  | .hbm, ⟨95, _⟩ => ⟨S200000, .f32⟩
  | .hbm, ⟨96, _⟩ => ⟨S200000x1, .f32⟩
  | .hbm, ⟨97, _⟩ => ⟨S200000x2, .f32⟩
  | .hbm, ⟨98, _⟩ => ⟨S200000x2, .f32⟩
  | .hbm, ⟨99, _⟩ => ⟨S200000x2, .f32⟩
  | .hbm, ⟨100, _⟩ => ⟨S_, .f32⟩
  | .hbm, ⟨101, _⟩ => ⟨S200000, .f32⟩
  | .hbm, ⟨102, _⟩ => ⟨S200000x1, .f32⟩
  | .hbm, ⟨103, _⟩ => ⟨S200000x1, .f32⟩
  | .hbm, ⟨104, _⟩ => ⟨S200000x2, .f32⟩
  | .hbm, ⟨105, _⟩ => ⟨S200000x2, .f32⟩
  | .local _ .vmem, ⟨0, _⟩ => ⟨S20000x128, .f32⟩
  | .local _ .vmem, ⟨1, _⟩ => ⟨S20000x128, .f32⟩
  | .local _ .vmem, ⟨2, _⟩ => ⟨S128x16, .f32⟩
  | .local _ .vmem, ⟨3, _⟩ => ⟨S20000x16, .f32⟩
  | .local _ .vmem, ⟨4, _⟩ => ⟨S20000x16, .f32⟩
  | .local _ .vmem, ⟨5, _⟩ => ⟨S20000x16, .f32⟩
  | .local _ .vmem, ⟨6, _⟩ => ⟨S20000x16, .f32⟩
  | .local _ .vmem, ⟨7, _⟩ => ⟨S16x2, .f32⟩
  | .local _ .vmem, ⟨8, _⟩ => ⟨S20000x2, .f32⟩
  | .local _ .vmem, ⟨9, _⟩ => ⟨S20000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S20000x16_S20000x16_0_0 : ∀ a, (![0, 0] : Fin 2 → Nat) a + S20000x16.size a ≤ S20000x16.size a
  h_S20000x16 : 0 < S20000x16.numel
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  shapeCasts_S20000x16_S20000x16 : S20000x16.ShapeCasts S20000x16
  inb_S16x2_S16x2_0_0 : ∀ a, (![0, 0] : Fin 2 → Nat) a + S16x2.size a ≤ S16x2.size a
  h_S16x2 : 0 < S16x2.numel
  inb_S20000x2_S20000x2_0_0 : ∀ a, (![0, 0] : Fin 2 → Nat) a + S20000x2.size a ≤ S20000x2.size a
  h_S20000x2 : 0 < S20000x2.numel
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S20000x128_S128x16_S20000x16_1_0_0_1_n_n_wf : DotDims.WF S20000x128 S128x16 S20000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S20000x16_S16x2_S20000x2_1_0_0_1_n_n_wf : DotDims.WF S20000x16 S16x2 S20000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S200000x128.size a
  hwx0_0 : ∀ i : grid0.Coords, EltTy.bits .f32 = 32 ∨ (Rect.block (s := S200000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x16.size a ≤ S200000x16.size a
  hwx0_2 : ∀ i : grid0.Coords, EltTy.bits .f32 = 32 ∨ (Rect.block (s := S200000x16) S20000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S200000x16.size a
  hwx1_0 : ∀ i : grid1.Coords, EltTy.bits .f32 = 32 ∨ (Rect.block (s := S200000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x2.size a ≤ S200000x2.size a
  hwx1_2 : ∀ i : grid1.Coords, EltTy.bits .f32 = 32 ∨ (Rect.block (s := S200000x2) S20000x2.size (cc1_transform_2 i) (hinb1_2 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S20000x16_S16x2_S20000x2_1_0_0_1_n_n : DotDims S20000x16 S16x2 S20000x2 where
  lhsContracting := [1]
  rhsContracting := [0]
  lhsNonContracting := [0]
  rhsNonContracting := [1]
  lhsBatch := []
  rhsBatch := []
  wf := dot_S20000x16_S16x2_S20000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S20000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S20000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000x16 : Shape := ⟨2, ![200000, 16]⟩
abbrev S_ : Shape := ⟨0, ![]⟩
abbrev S200000 : Shape := ⟨1, ![200000]⟩
abbrev S6400000x1 : Shape := ⟨2, ![6400000, 1]⟩
abbrev S6400000x16 : Shape := ⟨2, ![6400000, 16]⟩
abbrev S200000x1 : Shape := ⟨2, ![200000, 1]⟩
abbrev S1x16 : Shape := ⟨2, ![1, 16]⟩
abbrev S200000x2 : Shape := ⟨2, ![200000, 2]⟩
abbrev S6400000x2 : Shape := ⟨2, ![6400000, 2]⟩
abbrev S1x2 : Shape := ⟨2, ![1, 2]⟩

abbrev nBuf : Space → Nat
  | .hbm => 136
  | .vmem => 0
  | .smem => 0
  | _ => 0

abbrev hbmTy0_0 (i : Nat) : BufTy := match i % 128 with
  | 0 => ⟨S200000x128, .f32⟩
  | 1 => ⟨S2x6400000, .i32⟩
  | 2 => ⟨S128x16, .f32⟩
  | 3 => ⟨S16, .f32⟩
  | 4 => ⟨S16x2, .f32⟩
  | 5 => ⟨S2, .f32⟩
  | 6 => ⟨S1x6400000, .i32⟩
  | 7 => ⟨S6400000, .i32⟩
  | 8 => ⟨S1x6400000, .i32⟩
  | 9 => ⟨S6400000, .i32⟩
  | 10 => ⟨S200000x16, .f32⟩
  | 11 => ⟨S_, .f32⟩
  | 12 => ⟨S6400000, .f32⟩
  | 13 => ⟨S_, .f32⟩
  | 14 => ⟨S200000, .f32⟩
  | 15 => ⟨S6400000x1, .i32⟩
  | 16 => ⟨S200000, .f32⟩
  | 17 => ⟨S_, .f32⟩
  | 18 => ⟨S200000, .f32⟩
  | 19 => ⟨S200000, .f32⟩
  | 20 => ⟨S200000, .f32⟩
  | 21 => ⟨S_, .i32⟩
  | 22 => ⟨S6400000, .i32⟩
  | 23 => ⟨S6400000, .i1⟩
  | 24 => ⟨S_, .i32⟩
  | 25 => ⟨S6400000, .i32⟩
  | 26 => ⟨S6400000, .i32⟩
  | 27 => ⟨S6400000, .i32⟩
  | 28 => ⟨S6400000x1, .i32⟩
  | 29 => ⟨S6400000, .f32⟩
  | 30 => ⟨S_, .i32⟩
  | 31 => ⟨S6400000, .i32⟩
  | 32 => ⟨S6400000, .i1⟩
  | 33 => ⟨S_, .i32⟩
  | 34 => ⟨S6400000, .i32⟩
  | 35 => ⟨S6400000, .i32⟩
  | 36 => ⟨S6400000, .i32⟩
  | 37 => ⟨S6400000x1, .i32⟩
  | 38 => ⟨S6400000, .f32⟩
  | 39 => ⟨S6400000, .f32⟩
  | 40 => ⟨S6400000x1, .f32⟩
  | 41 => ⟨S_, .i32⟩
  | 42 => ⟨S6400000, .i32⟩
  | 43 => ⟨S6400000, .i1⟩
  | 44 => ⟨S_, .i32⟩
  | 45 => ⟨S6400000, .i32⟩
  | 46 => ⟨S6400000, .i32⟩
  | 47 => ⟨S6400000, .i32⟩
  | 48 => ⟨S6400000x1, .i32⟩
  | 49 => ⟨S6400000x16, .f32⟩
  | 50 => ⟨S6400000x16, .f32⟩
  | 51 => ⟨S6400000x16, .f32⟩
  | 52 => ⟨S_, .f32⟩
  | 53 => ⟨S200000x16, .f32⟩
  | 54 => ⟨S6400000x1, .i32⟩
  | 55 => ⟨S200000x16, .f32⟩
  | 56 => ⟨S200000, .f32⟩
  | 57 => ⟨S200000x1, .f32⟩
  | 58 => ⟨S200000x16, .f32⟩
  | 59 => ⟨S200000x16, .f32⟩
  | 60 => ⟨S200000x16, .f32⟩
  | 61 => ⟨S1x16, .f32⟩
  | 62 => ⟨S200000x16, .f32⟩
  | 63 => ⟨S200000x16, .f32⟩
  | 64 => ⟨S_, .f32⟩
  | 65 => ⟨S200000x16, .f32⟩
  | 66 => ⟨S200000x16, .f32⟩
  | 67 => ⟨S200000x2, .f32⟩
  | 68 => ⟨S_, .f32⟩
  | 69 => ⟨S6400000, .f32⟩
  | 70 => ⟨S_, .f32⟩
  | 71 => ⟨S200000, .f32⟩
  | 72 => ⟨S6400000x1, .i32⟩
  | 73 => ⟨S200000, .f32⟩
  | 74 => ⟨S_, .f32⟩
  | 75 => ⟨S200000, .f32⟩
  | 76 => ⟨S200000, .f32⟩
  | 77 => ⟨S200000, .f32⟩
  | 78 => ⟨S_, .i32⟩
  | 79 => ⟨S6400000, .i32⟩
  | 80 => ⟨S6400000, .i1⟩
  | 81 => ⟨S_, .i32⟩
  | 82 => ⟨S6400000, .i32⟩
  | 83 => ⟨S6400000, .i32⟩
  | 84 => ⟨S6400000, .i32⟩
  | 85 => ⟨S6400000x1, .i32⟩
  | 86 => ⟨S6400000, .f32⟩
  | 87 => ⟨S_, .i32⟩
  | 88 => ⟨S6400000, .i32⟩
  | 89 => ⟨S6400000, .i1⟩
  | 90 => ⟨S_, .i32⟩
  | 91 => ⟨S6400000, .i32⟩
  | 92 => ⟨S6400000, .i32⟩
  | 93 => ⟨S6400000, .i32⟩
  | 94 => ⟨S6400000x1, .i32⟩
  | 95 => ⟨S6400000, .f32⟩
  | 96 => ⟨S6400000, .f32⟩
  | 97 => ⟨S6400000x1, .f32⟩
  | 98 => ⟨S_, .i32⟩
  | 99 => ⟨S6400000, .i32⟩
  | 100 => ⟨S6400000, .i1⟩
  | 101 => ⟨S_, .i32⟩
  | 102 => ⟨S6400000, .i32⟩
  | 103 => ⟨S6400000, .i32⟩
  | 104 => ⟨S6400000, .i32⟩
  | 105 => ⟨S6400000x1, .i32⟩
  | 106 => ⟨S6400000x2, .f32⟩
  | 107 => ⟨S6400000x2, .f32⟩
  | 108 => ⟨S6400000x2, .f32⟩
  | 109 => ⟨S_, .f32⟩
  | 110 => ⟨S200000x2, .f32⟩
  | 111 => ⟨S6400000x1, .i32⟩
  | 112 => ⟨S200000x2, .f32⟩
  | 113 => ⟨S200000, .f32⟩
  | 114 => ⟨S200000x1, .f32⟩
  | 115 => ⟨S200000x2, .f32⟩
  | 116 => ⟨S200000x2, .f32⟩
  | 117 => ⟨S200000x2, .f32⟩
  | 118 => ⟨S1x2, .f32⟩
  | 119 => ⟨S200000x2, .f32⟩
  | 120 => ⟨S200000x2, .f32⟩
  | 121 => ⟨S_, .f32⟩
  | 122 => ⟨S200000, .f32⟩
  | 123 => ⟨S_, .f32⟩
  | 124 => ⟨S200000, .f32⟩
  | 125 => ⟨S200000, .f32⟩
  | 126 => ⟨S200000x1, .f32⟩
  | 127 => ⟨S200000x2, .f32⟩
  | _ => ⟨S200000x128, .f32⟩

abbrev hbmTy0_1 (i : Nat) : BufTy := match i % 128 with
  | 0 => ⟨S200000x2, .f32⟩
  | 1 => ⟨S200000x2, .f32⟩
  | 2 => ⟨S_, .f32⟩
  | 3 => ⟨S200000, .f32⟩
  | 4 => ⟨S200000x1, .f32⟩
  | 5 => ⟨S200000x1, .f32⟩
  | 6 => ⟨S200000x2, .f32⟩
  | 7 => ⟨S200000x2, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  dot_S200000x128_S128x16_S200000x16_1_0_0_1_n_n_wf : DotDims.WF S200000x128 S128x16 S200000x16 [1] [0] [0] [1] [] []
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x2_S200000x2_1_0_0_1_n_n_wf : DotDims.WF S200000x16 S16x2 S200000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

class Facts : Prop extends Facts₀ where

variable [Facts]
-- ==== Proof.KernelRun.lean ====
/-
  The idealized kernel program's run with its result array named.

  The program is seven segments: host operations, the first pallas_call, host operations (two stretches), the
  second pallas_call, host operations (two stretches). The contents of every buffer at each boundary are a fold
  from the launch memory: a stretch of host operations applies them in order; a pallas_call leaves its arrays at
  what its write-backs leave and every other buffer as it was. Every weakly fair execution terminates with every
  unscoped buffer at the last boundary's contents. Read at the six argument arrays this is the frame; read at the
  returned array it names the result as the fold's value there, which the later modules compute.
-/
import proofs.«155437_j11587821764812_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned array at the
    last boundary's contents and the six argument arrays as launched. -/
theorem run_named : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibTRefRoundTrip.lean ====
/-
  A host line inside a called function writes its value to a typed buffer, and the next line reads it back at the
  same type. Each of the two steps transports the value along the buffer's type equation, in opposite directions, so
  together they are the identity: `x.ofBuf (x.toBuf v) = v` for every typed reference `x` and every value `v` of its
  type. Rewriting with it removes every write-then-read pair from the composed value of a chain of such lines,
  leaving the plain composition of the lines' operations.
-/
import Idealize.ShloMosaic.Lib.StableHlo

namespace Cert.LibTRefRoundTrip

open Idealize.ShloMosaic

/-- A value written to a typed buffer and read back at the same type is itself: the two transports along the
    buffer's type equation cancel. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

end Cert.LibTRefRoundTrip
-- ==== Proof.HostRead.lean ====
/-
  Reading one buffer after a list of host operations.

  After a list of host operations a buffer holds the value of the last operation that wrote it, applied to what
  its operand buffers held at that moment, and so on back to the contents the list started from. The tactic below
  computes that composed value in one pass. A line inside a called function writes its value to a typed buffer and
  the next line reads it back: each such write-then-read pair is the identity and is removed in the same pass, so
  that what is left is the plain composition of the lines' operations.
-/
import proofs.«155437_j11587821764812_1_alg».proof.Proof.LibTRefRoundTrip
import Idealize.ShloMosaic.Lib.StableHlo.Run

namespace Cert.HostRead

open Idealize.ShloMosaic

/-- Rewrites `StableHlo.after ops V b`, for a literal list `ops` over literal references, to the composed value
    of the operations that reach `b`, over `V` at the buffers no operation of the list writes. -/
macro "host_read" : tactic =>
  `(tactic| (simp (disch := decide) only [StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne',
      Cert.LibTRefRoundTrip.ofBuf_toBuf, cast_eq]))

end Cert.HostRead
-- ==== Proof.Carried.lean ====
/-
  What the later stretches of the kernel program read that was computed before the first pallas_call.

  From the edge list alone the first stretch of host operations computes: the source and the target node of every
  edge (the two rows of the edge list), every node's degree counted with its self-loop (a scatter-add of ones at
  the targets, plus one) and its inverse square root, the weight of every edge (the product of that number at
  its two ends), and the weight of every self-loop (its square). These are, operation for operation, the
  reference program's stages of the same names. Neither pallas_call and no later host operation writes these
  buffers or an argument array, so each still holds that value wherever it is read again: when the second
  stretch aggregates the first layer and when the last stretch aggregates the second.
-/
import proofs.«155437_j11587821764812_1_alg».proof.Proof.Gen.KernelIdeal.Frame
import proofs.«155437_j11587821764812_1_alg».proof.Proof.RefRead
import proofs.«155437_j11587821764812_1_alg».proof.Proof.HostRead
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.ReadP Cert.HostRead

variable (m : (ℓ : Loc nD τ sig) → Buf (Elt Ideal) ℓ) (ρ : Dev nD → PrngReg)

/-- A buffer that no operation of a stretch writes holds after the stretch what it held before. -/
macro "not_written" : tactic => `(tactic|
  (refine StableHlo.after_of_forall_not_mem _ _ (List.forall_iff_forall_mem.mp ?_)
   simp only [hostOps0, hostOps1, hostOps1_1, hostOps2, hostOps2_1, List.Forall, StableHlo.nullary_writes,
     StableHlo.unary_writes, StableHlo.binary_writes, StableHlo.ternary_writes, StableHlo.quaternary_writes,
     StableHlo.reshape_writes, StableHlo.binaryIndexed_writes, Finset.mem_singleton]
   repeat' apply And.intro
   all_goals exact StableHlo.devRef_ne_of_ne (by decide)))

/-! ## Before the first call -/

/-- The first operand of the first call is the node features as launched. -/
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  not_written

/-- Its second operand is the first weight matrix as launched. -/
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  not_written

theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  not_written

theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  not_written

theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  not_written

/-- The source node of every edge: row 0 of the edge list. -/
theorem W1_src (c : Dev nD) :
    W1 m ρ c (Proc.devRef .tc main_v1) = val_main_v1 (F := Ideal) (m ((c : Thread nD τ).loc main_arg1)) := by
  show StableHlo.after hostOps0 (W0 m ρ c) (Proc.devRef .tc main_v1) = _
  host_read
  rfl

/-- The target node of every edge: row 1 of the edge list. -/
theorem W1_dst (c : Dev nD) :
    W1 m ρ c (Proc.devRef .tc main_v3) = val_main_v3 (F := Ideal) (m ((c : Thread nD τ).loc main_arg1)) := by
  show StableHlo.after hostOps0 (W0 m ρ c) (Proc.devRef .tc main_v3) = _
  host_read
  rfl

set_option maxHeartbeats 1000000 in
/-- The weight of every edge: the inverse square roots of the degrees at its two ends, multiplied. -/
theorem W1_edgeWeight (c : Dev nD) :
    W1 m ρ c (Proc.devRef .tc main_v25) = val_main_v26 (F := Ideal) (m ((c : Thread nD τ).loc main_arg1)) := by
  show StableHlo.after hostOps0 (W0 m ρ c) (Proc.devRef .tc main_v25) = _
  host_read
  rfl

set_option maxHeartbeats 1000000 in
/-- The weight of every self-loop: the inverse of the degree. -/
theorem W1_selfWeight (c : Dev nD) :
    W1 m ρ c (Proc.devRef .tc main_v26) = val_main_v40 (F := Ideal) (m ((c : Thread nD τ).loc main_arg1)) := by
  show StableHlo.after hostOps0 (W0 m ρ c) (Proc.devRef .tc main_v26) = _
  host_read
  rfl

end Cert.KernelIdeal.Fold

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibMatProduct.lean ====
/-
  The product of an [M, K] matrix with a [K, N] matrix as ONE array over the exact extended reals:
  entry (p, q) is the sum over k of A (p, k) * B (k, q).

  Two operations are this array. A host dot_general with plain dimension numbers (no batch axis, the left
  operand contracting its second axis, the right operand its first) is it outright. A matrix-unit product
  of a block of rows of A with the whole of B, taken into the zero accumulator, is the product's entries
  on those rows: the rows of a product depend on the same rows of the left operand only, so a product
  computed a block of rows at a time is the whole product, whatever the block height.
-/
import Idealize.ShloMosaic.PureOps.Ideal.Laws
import Idealize.ShloMosaic.Lib.ValueIdx
import proofs.«155437_j11587821764812_1_alg».proof.Proof.LibPlainMatmul

noncomputable section

namespace Cert.SE.Lib

open Idealize.ShloMosaic Idealize.ShloMosaic.ValueIdx

variable {M K N : Nat}

/-- The matrix product as an array: entry (p, q) is the sum over k of A (p, k) * B (k, q). -/
def matProd (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- Its entry at coordinates (p, q). -/
theorem matProd_apply (A : (⟨2, ![M, K]⟩ : Shape).Idx → EReal) (B : (⟨2, ![K, N]⟩ : Shape).Idx → EReal)
    (p : Fin M) (q : Fin N) : matProd A B (ix2 p q) = ∑ k : Fin K, A (ix2 p k) * B (ix2 k q) := rfl

/-- A host dot_general with plain dimension numbers is the matrix product. -/
theorem hostDot_eq_matProd {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂) :
    Host.dotGeneral d prec A B = matProd A B := by
  funext i
  obtain ⟨p, q, rfl⟩ : ∃ (p : Fin M) (q : Fin N), i = ix2 p q := ⟨i 0, i 1, eq_ix2 i⟩
  have hr : d.contr.rank = 1 := contr_rank_plain d hlc
  have hs : d.contr.size ⟨0, by omega⟩ = K := contr_size_plain d hlc _
  refine (Ideal.dotGeneral_apply d prec .single A B (ix2 p q)).trans ?_
  rw [matProd_apply, ← Equiv.sum_comp (contrEquiv1 d K hr hs).symm]
  refine Finset.sum_congr rfl fun k _ => ?_
  rw [lhsIdx_plain d hlb hln hlc hr hs p q k, rhsIdx_plain d hlb hln hrb hrn hrc hr hs p q k]

/-- A matrix-unit product of R rows with the whole right operand, into the zero accumulator, read at (p, q):
    when row p of the block is row r of A (`hA`) and the right block is B (`hB`), the entry is the product's
    entry (r, q). -/
theorem matmul_rows_eq_matProd {R : Nat} {φ₁ φ₂ : FTy} (d : DotDims ⟨2, ![R, K]⟩ ⟨2, ![K, N]⟩ ⟨2, ![R, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (a : FVec Ideal ⟨2, ![R, K]⟩ φ₁) (b : FVec Ideal ⟨2, ![K, N]⟩ φ₂)
    (A : (⟨2, ![M, K]⟩ : Shape).Idx → EReal) (B : (⟨2, ![K, N]⟩ : Shape).Idx → EReal)
    (p : Fin R) (q : Fin N) (r : Fin M)
    (hA : ∀ k : Fin K, a (ix2 p k) = A (ix2 r k)) (hB : ∀ k : Fin K, b (ix2 k q) = B (ix2 k q)) :
    matmul d prec a b (constant (F := Ideal) ⟨2, ![R, N]⟩ .f32 0x00000000#32) (ix2 p q) = matProd A B (ix2 r q) := by
  rw [matmul_plain_apply d hlb hln hlc hrb hrn hrc prec a b p q, matProd_apply]
  exact Finset.sum_congr rfl fun k _ => by rw [hA k, hB k]

end Cert.SE.Lib

end
-- ==== Proof.Linear1.lean ====
/-
  The first linear layer, x · W1, as the first pallas_call computes it.

  The call walks a grid of ten points. At point t it loads rows 20000·t … 20000·t + 19999 of the [200000, 128]
  left operand and the whole [128, 16] right operand, multiplies them on the matrix unit into a zero
  accumulator (the bf16 casts in front are the identity on exact numbers) and stores the [20000, 16] block as
  rows 20000·t … of the result. A row of a matrix product depends on the same row of the left operand only,
  so each stored block is that stretch of rows of the whole product; the ten blocks tile the 200000 rows, so the
  result array ends holding the whole product of the two arrays as the call found them.
-/
import proofs.«155437_j11587821764812_1_alg».proof.Proof.Gen.KernelIdeal.Frame
import proofs.«155437_j11587821764812_1_alg».proof.Proof.LibMatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear1

open Cert.KernelIdeal Cert.KernelIdeal.Gen Cert.SE.Lib

-- the contents of the TensorCore's buffers when the call is entered
variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the two operand arrays as the call finds them. -/
abbrev product (c : Dev nD) : S200000x16.Idx → EReal :=
  matProd (M := 200000) (K := 128) (N := 16) (V c main_arg0) (V c main_arg2)

/-- The block index maps, decided over the ten points: the left operand's and the result's row block is the
    point itself, every column block is 0, and the right operand's block never moves. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, read at (p, q): when row p of its left block is row r of A and its right block is B,
    the entry (r, q) of the product A · B. -/
theorem stored_apply (x0 : Vec Ideal S20000x128 .f32) (x1 : Vec Ideal S128x16 .f32)
    (A : S200000x128.Idx → EReal) (B : S128x16.Idx → EReal) (p : Fin 20000) (q : Fin 16) (r : Fin 200000)
    (hA : ∀ k : Fin 128, x0 (ix2 p k) = A (ix2 r k)) (hB : ∀ k : Fin 128, x1 (ix2 k q) = B (ix2 k q)) :
    k0_pay1 (F := Ideal) x0 x1 (ix2 p q) = matProd (M := 200000) (K := 128) (N := 16) A B (ix2 r q) := by
  unfold k0_pay1
  exact matmul_rows_eq_matProd (M := 200000) dot_S20000x128_S128x16_S20000x16_1_0_0_1_n_n rfl rfl rfl rfl rfl rfl none
    _ _ A B p q r hA hB

/-- What point t writes back is block t of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S20000x128) zero_offsets, View.ld_unit_zero (S := S128x16) zero_offsets]
  obtain ⟨e0, e1, e2, e3, e4, e5⟩ := block_indices t
  have hN : cfg0.N = 10 := N_0
  have ht : t.val < 10 := hN ▸ t.isLt
  funext j
  obtain ⟨p, q, rfl⟩ : ∃ (p : Fin 20000) (q : Fin 16), j = ix2 p q := ⟨j 0, j 1, eq_ix2 j⟩
  have hp : p.val < 20000 := p.isLt
  show k0_pay1 (F := Ideal) (iblk0 V c 0 t) (iblk0 V c 1 t) (ix2 p q) = product V c (((cfg0.win 2).blk t).view.emb (ix2 p q))
  refine (stored_apply (iblk0 V c 0 t) (iblk0 V c 1 t) (V c main_arg0) (V c main_arg2) p q
    ⟨t.val * 20000 + p.val, by omega⟩ (fun k => ?_) (fun k => ?_)).trans ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 20000 + 1 * p.val = t.val * 20000 + p.val; rw [e0]; omega
    | ⟨1, _⟩ => show win0_0.index t (1 : Fin 2) * 128 + 1 * k.val = k.val; rw [e1]; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 16 + 1 * q.val = q.val; rw [e3]; omega
  · refine congrArg (product V c) (funext fun a => Fin.ext ?_)
    match a with
    | ⟨0, _⟩ => show t.val * 20000 + p.val = win0_2.index t (0 : Fin 2) * 20000 + 1 * p.val; rw [e4]; omega
    | ⟨1, _⟩ => show q.val = win0_2.index t (1 : Fin 2) * 16 + 1 * q.val; rw [e5]; omega

/-- An index of the result array lies in point t's block iff each coordinate lies in the block's range. -/
theorem mem_block (t : Fin cfg0.N) (i : S200000x16.Idx) :
    i ∈ ((cfg0.win 2).blk t).view.set ↔ ∀ a : Fin 2, win0_2.index t a * S20000x16.size a ≤ (i a).val
      ∧ (i a).val < win0_2.index t a * S20000x16.size a + S20000x16.size a := by
  show i ∈ ((View.whole main_v27).slice (win0_2.rect t)).set ↔ _
  rw [View.set_slice_whole, Rect.mem_set_unit]
  exact Iff.rfl

/-- Row r of the result lies in the block of point r / 20000: the ten blocks cover the array. -/
theorem covered (i : S200000x16.Idx) :
    ∃ t : Fin cfg0.N, (cfg0.win 2).flush t = true ∧ i ∈ ((cfg0.win 2).blk t).view.set := by
  have hN : cfg0.N = 10 := N_0
  have hi0 : (i 0).val < 200000 := (i 0).isLt
  have hi1 : (i 1).val < 16 := (i 1).isLt
  refine ⟨⟨(i 0).val / 20000, by omega⟩, flush0_2 _, ?_⟩
  rw [mem_block]
  obtain ⟨-, -, -, -, e4, e5⟩ := block_indices ⟨(i 0).val / 20000, by omega⟩
  intro a
  match a with
  | ⟨0, _⟩ =>
    show win0_2.index _ (0 : Fin 2) * 20000 ≤ (i 0).val ∧ (i 0).val < win0_2.index _ (0 : Fin 2) * 20000 + 20000
    rw [e4]; dsimp only; omega
  | ⟨1, _⟩ =>
    show win0_2.index _ (1 : Fin 2) * 16 ≤ (i 1).val ∧ (i 1).val < win0_2.index _ (1 : Fin 2) * 16 + 16
    rw [e5]; omega

/-- After the call its result array holds the whole product x · W1 of the arrays the call was entered with. -/
theorem result_array (c : Dev nD) : (dat0 (F := Ideal) V c).arrAt 2 cfg0.N = product V c :=
  (dat0 V c).arrAt_eq_of_cover 2 (product V c) (fun t _ => flushed_eq V c t) (covered)

end Cert.KernelIdeal.Linear1

end
-- ==== Proof.Linear2.lean ====
/-
  The second linear layer, h · W2, as the second pallas_call computes it.

  The call walks a grid of ten points. At point t it loads rows 20000·t … 20000·t + 19999 of the [200000, 16]
  hidden array and the whole [16, 2] weight, multiplies them on the matrix unit into a zero accumulator (the
  identity reshape and the bf16 casts in front are the identity on exact numbers) and stores the [20000, 2]
  block as rows 20000·t … of the result. As for the first layer, each stored block is that stretch of rows of
  the whole product and the ten blocks tile the 200000 rows, so the result array ends holding the whole
  product of the two arrays as the call found them.
-/
import proofs.«155437_j11587821764812_1_alg».proof.Proof.Gen.KernelIdeal.Frame
import proofs.«155437_j11587821764812_1_alg».proof.Proof.LibMatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Linear2

open Cert.KernelIdeal Cert.KernelIdeal.Gen Cert.SE.Lib

-- the contents of the TensorCore's buffers when the call is entered
variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the two operand arrays as the call finds them. -/
abbrev product (c : Dev nD) : S200000x2.Idx → EReal :=
  matProd (M := 200000) (K := 16) (N := 2) (V c main_v48) (V c main_arg4)

/-- The block index maps, decided over the ten points: the left operand's and the result's row block is the
    point itself, every column block is 0, and the right operand's block never moves. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body stores, read at (p, q): when row p of its left block is row r of A and its right block is B,
    the entry (r, q) of the product A · B. -/
theorem stored_apply (x0 : Vec Ideal S20000x16 .f32) (x1 : Vec Ideal S16x2 .f32)
    (A : S200000x16.Idx → EReal) (B : S16x2.Idx → EReal) (p : Fin 20000) (q : Fin 2) (r : Fin 200000)
    (hA : ∀ k : Fin 16, x0 (ix2 p k) = A (ix2 r k)) (hB : ∀ k : Fin 16, x1 (ix2 k q) = B (ix2 k q)) :
    k1_pay1 (F := Ideal) x0 x1 (ix2 p q) = matProd (M := 200000) (K := 16) (N := 2) A B (ix2 r q) := by
  unfold k1_pay1
  rw [shapeCast_self]
  exact matmul_rows_eq_matProd (M := 200000) dot_S20000x16_S16x2_S20000x2_1_0_0_1_n_n rfl rfl rfl rfl rfl rfl none
    _ _ A B p q r hA hB

/-- What point t writes back is block t of the whole product. -/
theorem flushed_eq (c : Dev nD) (t : Fin cfg1.N) :
    (dat1 (F := Ideal) V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S20000x16) zero_offsets, View.ld_unit_zero (S := S16x2) zero_offsets]
  obtain ⟨e0, e1, e2, e3, e4, e5⟩ := block_indices t
  have hN : cfg1.N = 10 := N_1
  have ht : t.val < 10 := hN ▸ t.isLt
  funext j
  obtain ⟨p, q, rfl⟩ : ∃ (p : Fin 20000) (q : Fin 2), j = ix2 p q := ⟨j 0, j 1, eq_ix2 j⟩
  have hp : p.val < 20000 := p.isLt
  show k1_pay1 (F := Ideal) (iblk1 V c 0 t) (iblk1 V c 1 t) (ix2 p q) = product V c (((cfg1.win 2).blk t).view.emb (ix2 p q))
  refine (stored_apply (iblk1 V c 0 t) (iblk1 V c 1 t) (V c main_v48) (V c main_arg4) p q
    ⟨t.val * 20000 + p.val, by omega⟩ (fun k => ?_) (fun k => ?_)).trans ?_
  · show V c main_v48 (((cfg1.win 0).blk t).view.emb (ix2 p k)) = V c main_v48 _
    refine congrArg (V c main_v48) (funext fun a => Fin.ext ?_)
    match a with
    | ⟨0, _⟩ => show win1_0.index t (0 : Fin 2) * 20000 + 1 * p.val = t.val * 20000 + p.val; rw [e0]; omega
    | ⟨1, _⟩ => show win1_0.index t (1 : Fin 2) * 16 + 1 * k.val = k.val; rw [e1]; omega
  · show V c main_arg4 (((cfg1.win 1).blk t).view.emb (ix2 k q)) = V c main_arg4 _
    refine congrArg (V c main_arg4) (funext fun a => Fin.ext ?_)
    match a with
    | ⟨0, _⟩ => show win1_1.index t (0 : Fin 2) * 16 + 1 * k.val = k.val; rw [e2]; omega
    | ⟨1, _⟩ => show win1_1.index t (1 : Fin 2) * 2 + 1 * q.val = q.val; rw [e3]; omega
  · refine congrArg (product V c) (funext fun a => Fin.ext ?_)
    match a with
    | ⟨0, _⟩ => show t.val * 20000 + p.val = win1_2.index t (0 : Fin 2) * 20000 + 1 * p.val; rw [e4]; omega
    | ⟨1, _⟩ => show q.val = win1_2.index t (1 : Fin 2) * 2 + 1 * q.val; rw [e5]; omega

/-- An index of the result array lies in point t's block iff each coordinate lies in the block's range. -/
theorem mem_block (t : Fin cfg1.N) (i : S200000x2.Idx) :
    i ∈ ((cfg1.win 2).blk t).view.set ↔ ∀ a : Fin 2, win1_2.index t a * S20000x2.size a ≤ (i a).val
      ∧ (i a).val < win1_2.index t a * S20000x2.size a + S20000x2.size a := by
  show i ∈ ((View.whole main_v49).slice (win1_2.rect t)).set ↔ _
  rw [View.set_slice_whole, Rect.mem_set_unit]
  exact Iff.rfl

/-- Row r of the result lies in the block of point r / 20000: the ten blocks cover the array. -/
theorem covered (i : S200000x2.Idx) :
    ∃ t : Fin cfg1.N, (cfg1.win 2).flush t = true ∧ i ∈ ((cfg1.win 2).blk t).view.set := by
  have hN : cfg1.N = 10 := N_1
  have hi0 : (i 0).val < 200000 := (i 0).isLt
  have hi1 : (i 1).val < 2 := (i 1).isLt
  refine ⟨⟨(i 0).val / 20000, by omega⟩, flush1_2 _, ?_⟩
  rw [mem_block]
  obtain ⟨-, -, -, -, e4, e5⟩ := block_indices ⟨(i 0).val / 20000, by omega⟩
  intro a
  match a with
  | ⟨0, _⟩ =>
    show win1_2.index _ (0 : Fin 2) * 20000 ≤ (i 0).val ∧ (i 0).val < win1_2.index _ (0 : Fin 2) * 20000 + 20000
    rw [e4]; dsimp only; omega
  | ⟨1, _⟩ =>
    show win1_2.index _ (1 : Fin 2) * 2 ≤ (i 1).val ∧ (i 1).val < win1_2.index _ (1 : Fin 2) * 2 + 2
    rw [e5]; omega

/-- After the call its result array holds the whole product h · W2 of the arrays the call was entered with. -/
theorem result_array (c : Dev nD) : (dat1 (F := Ideal) V c).arrAt 2 cfg1.N = product V c :=
  (dat1 V c).arrAt_eq_of_cover 2 (product V c) (fun t _ => flushed_eq V c t) (covered)

end Cert.KernelIdeal.Linear2

end
-- ==== Proof.Layers.lean ====
/-
  The kernel program, layer by layer, holds the reference program's stages.

  The first pallas_call leaves the product x · W1 of the node features and the first weight matrix: the
  reference's first dense product. The host operations after it gather that product's rows at the edges' sources,
  scale them by the edge weights, scatter-add them at the edges' targets, add the self-loop term and the first bias
  and apply relu: operation for operation the reference's first graph convolution and its relu, over the same edge
  weights (computed once here, before the first call, and computed again by the reference: the same operations of
  the same edge list). The second pallas_call leaves the product of that hidden array and the second weight matrix,
  and the last host operations are the reference's second convolution and its log-softmax. So the returned array
  holds the reference's last stage of the six argument arrays.
-/
import proofs.«155437_j11587821764812_1_alg».proof.Proof.Carried
import proofs.«155437_j11587821764812_1_alg».proof.Proof.Linear1
import proofs.«155437_j11587821764812_1_alg».proof.Proof.Linear2
import proofs.«155437_j11587821764812_1_alg».proof.Proof.HostRead

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.ReadP Cert.SE.Lib Cert.HostRead

variable (m : (ℓ : Loc nD τ sig) → Buf (Elt Ideal) ℓ) (ρ : Dev nD → PrngReg)

/-! ## After the first call -/

/-- The first call's result array holds the reference's first dense product. -/
theorem W2_product (c : Dev nD) :
    W2 m ρ c (Proc.devRef .tc main_v27) = val_main_v4 (F := Ideal) (m ((c : Thread nD τ).loc main_arg0)) (m ((c : Thread nD τ).loc main_arg2)) := by
  refine (W2_arr m ρ c 2).trans ?_
  rw [Linear1.result_array (V1 m ρ) c]
  show matProd (M := 200000) (K := 128) (N := 16) (W1 m ρ c (Proc.devRef .tc main_arg0)) (W1 m ρ c (Proc.devRef .tc main_arg2)) = _
  rw [W1_arg0, W1_arg2]
  exact (hostDot_eq_matProd Cert.ReferenceIdeal.dot_S200000x128_S128x16_S200000x16_1_0_0_1_n_n rfl rfl rfl rfl rfl rfl none _ _).symm

theorem W2_src (c : Dev nD) : W2 m ρ c (Proc.devRef .tc main_v1) = val_main_v1 (F := Ideal) (m ((c : Thread nD τ).loc main_arg1)) :=
  (W2_of_ne m ρ c main_v1 (by decide)).trans (W1_src m ρ c)
theorem W2_dst (c : Dev nD) : W2 m ρ c (Proc.devRef .tc main_v3) = val_main_v3 (F := Ideal) (m ((c : Thread nD τ).loc main_arg1)) :=
  (W2_of_ne m ρ c main_v3 (by decide)).trans (W1_dst m ρ c)
theorem W2_edgeWeight (c : Dev nD) : W2 m ρ c (Proc.devRef .tc main_v25) = val_main_v26 (F := Ideal) (m ((c : Thread nD τ).loc main_arg1)) :=
  (W2_of_ne m ρ c main_v25 (by decide)).trans (W1_edgeWeight m ρ c)
theorem W2_selfWeight (c : Dev nD) : W2 m ρ c (Proc.devRef .tc main_v26) = val_main_v40 (F := Ideal) (m ((c : Thread nD τ).loc main_arg1)) :=
  (W2_of_ne m ρ c main_v26 (by decide)).trans (W1_selfWeight m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)

/-! ## Before the second call -/

/-- A buffer that no operation between the two calls writes holds at the second call what it held after the first. -/
theorem W4_of_not_written (c : Dev nD) (b : Ref sig .tc)
    (h1 : ∀ op ∈ (hostOps1 : List (HloOp τ sig (Elt Ideal))), Proc.devRef (τ := τ) .tc b ∉ op.writes)
    (h2 : ∀ op ∈ (hostOps1_1 : List (HloOp τ sig (Elt Ideal))), Proc.devRef (τ := τ) .tc b ∉ op.writes) :
    W4 m ρ c (Proc.devRef .tc b) = W2 m ρ c (Proc.devRef .tc b) :=
  (StableHlo.after_of_forall_not_mem _ _ h2).trans (StableHlo.after_of_forall_not_mem _ _ h1)

/-- The membership side of `not_written`: no operation of the stretch writes the buffer. -/
macro "no_writer" : tactic => `(tactic|
  (refine List.forall_iff_forall_mem.mp ?_
   simp only [hostOps1, hostOps1_1, List.Forall, StableHlo.nullary_writes,
     StableHlo.unary_writes, StableHlo.binary_writes, StableHlo.ternary_writes, StableHlo.quaternary_writes,
     StableHlo.reshape_writes, StableHlo.binaryIndexed_writes, Finset.mem_singleton]
   repeat' apply And.intro
   all_goals exact StableHlo.devRef_ne_of_ne (by decide)))

theorem W4_src (c : Dev nD) : W4 m ρ c (Proc.devRef .tc main_v1) = val_main_v1 (F := Ideal) (m ((c : Thread nD τ).loc main_arg1)) :=
  (W4_of_not_written m ρ c main_v1 (by no_writer) (by no_writer)).trans (W2_src m ρ c)
theorem W4_dst (c : Dev nD) : W4 m ρ c (Proc.devRef .tc main_v3) = val_main_v3 (F := Ideal) (m ((c : Thread nD τ).loc main_arg1)) :=
  (W4_of_not_written m ρ c main_v3 (by no_writer) (by no_writer)).trans (W2_dst m ρ c)
theorem W4_edgeWeight (c : Dev nD) : W4 m ρ c (Proc.devRef .tc main_v25) = val_main_v26 (F := Ideal) (m ((c : Thread nD τ).loc main_arg1)) :=
  (W4_of_not_written m ρ c main_v25 (by no_writer) (by no_writer)).trans (W2_edgeWeight m ρ c)
theorem W4_selfWeight (c : Dev nD) : W4 m ρ c (Proc.devRef .tc main_v26) = val_main_v40 (F := Ideal) (m ((c : Thread nD τ).loc main_arg1)) :=
  (W4_of_not_written m ρ c main_v26 (by no_writer) (by no_writer)).trans (W2_selfWeight m ρ c)
theorem W4_arg4 (c : Dev nD) : W4 m ρ c (Proc.devRef .tc main_arg4) = (m ((c : Thread nD τ).loc main_arg4)) :=
  (W4_of_not_written m ρ c main_arg4 (by no_writer) (by no_writer)).trans (W2_arg4 m ρ c)
theorem W4_arg5 (c : Dev nD) : W4 m ρ c (Proc.devRef .tc main_arg5) = (m ((c : Thread nD τ).loc main_arg5)) :=
  (W4_of_not_written m ρ c main_arg5 (by no_writer) (by no_writer)).trans (W2_arg5 m ρ c)

set_option maxHeartbeats 1000000 in
/-- The second call's left operand holds the reference's hidden array: the first convolution, then relu. -/
theorem W4_hidden (c : Dev nD) :
    W4 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W2 m ρ c)) (Proc.devRef .tc main_v48) = _
  host_read
  simp only [W2_product m ρ c, W2_src m ρ c, W2_dst m ρ c, W2_edgeWeight m ρ c, W2_selfWeight m ρ c, W2_arg3 m ρ c]
  rfl

/-! ## After the second call -/

/-- The second call's result array holds the reference's second dense product. -/
theorem W5_product (c : Dev nD) :
    W5 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Linear2.result_array (V4 m ρ) c]
  show matProd (M := 200000) (K := 16) (N := 2) (W4 m ρ c (Proc.devRef .tc main_v48)) (W4 m ρ c (Proc.devRef .tc main_arg4)) = _
  rw [W4_hidden, W4_arg4]
  exact (hostDot_eq_matProd Cert.ReferenceIdeal.dot_S200000x16_S16x2_S200000x2_1_0_0_1_n_n rfl rfl rfl rfl rfl rfl none _ _).symm

theorem W5_src (c : Dev nD) : W5 m ρ c (Proc.devRef .tc main_v1) = val_main_v1 (F := Ideal) (m ((c : Thread nD τ).loc main_arg1)) :=
  (W5_of_ne m ρ c main_v1 (by decide)).trans (W4_src m ρ c)
theorem W5_dst (c : Dev nD) : W5 m ρ c (Proc.devRef .tc main_v3) = val_main_v3 (F := Ideal) (m ((c : Thread nD τ).loc main_arg1)) :=
  (W5_of_ne m ρ c main_v3 (by decide)).trans (W4_dst m ρ c)
theorem W5_edgeWeight (c : Dev nD) : W5 m ρ c (Proc.devRef .tc main_v25) = val_main_v26 (F := Ideal) (m ((c : Thread nD τ).loc main_arg1)) :=
  (W5_of_ne m ρ c main_v25 (by decide)).trans (W4_edgeWeight m ρ c)
theorem W5_selfWeight (c : Dev nD) : W5 m ρ c (Proc.devRef .tc main_v26) = val_main_v40 (F := Ideal) (m ((c : Thread nD τ).loc main_arg1)) :=
  (W5_of_ne m ρ c main_v26 (by decide)).trans (W4_selfWeight m ρ c)
theorem W5_arg5 (c : Dev nD) : W5 m ρ c (Proc.devRef .tc main_arg5) = (m ((c : Thread nD τ).loc main_arg5)) :=
  (W5_of_ne m ρ c main_arg5 (by decide)).trans (W4_arg5 m ρ c)

/-! ## The reference computes the weights twice -/

/-- The reference's second convolution recomputes the edge weights and the self-loop weights from the edge list by
    the same operations as its first: the same values. -/
theorem edgeWeight_again (x1 : (⟨Cert.ReferenceIdeal.S2x6400000, .i32⟩ : BufTy).Contents (Elt Ideal)) :
    val_main_v71 (F := Ideal) x1 = val_main_v26 (F := Ideal) x1 := rfl
theorem selfWeight_again (x1 : (⟨Cert.ReferenceIdeal.S2x6400000, .i32⟩ : BufTy).Contents (Elt Ideal)) :
    val_main_v85 (F := Ideal) x1 = val_main_v40 (F := Ideal) x1 := rfl

/-! ## The returned array -/

set_option maxHeartbeats 1000000 in
/-- The returned array holds the reference's last stage: the second convolution, then log-softmax. -/
theorem W7_result (c : Dev nD) :
    W7 m ρ c (Proc.devRef .tc main_v70)
      = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_1 (StableHlo.after hostOps2 (W5 m ρ c)) (Proc.devRef .tc main_v70) = _
  host_read
  simp only [W5_product m ρ c, W5_src m ρ c, W5_dst m ρ c, W5_edgeWeight m ρ c, W5_selfWeight m ρ c, W5_arg5 m ρ c,
    ← edgeWeight_again, ← selfWeight_again]
  rfl

end Cert.KernelIdeal.Fold

end
-- ==== Proof.ReferenceRun.lean ====
/-
  The reference program's run.

  The reference is a straight line of 130 host operations. Every weakly fair execution of it terminates with each
  buffer at the fold of the operations over the launch memory. Read at the result buffer, that fold is the last of
  the program's stages — each stage one operation applied to the stages of its operands, down to the six argument
  arrays —: two graph convolutions, each a dense product, a gather of its rows at the edges' sources, a scaling by
  the edge weights, a scatter-add at the edges' targets, the self-loop term and the bias; a relu between them; a
  log-softmax over the two classes at the end. No operation writes an argument array.
-/
import proofs.«155437_j11587821764812_1_alg».proof.Proof.RefRead
import proofs.«155437_j11587821764812_1_alg».proof.Proof.HostRead
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ValueP Cert.ReferenceIdeal.ReadP Cert.HostRead

variable (m : (ℓ : Loc nD τ sig) → Buf (Elt Ideal) ℓ) (ρ : Dev nD → PrngReg)

set_option maxHeartbeats 4000000 in
/-- The result buffer after the 130 operations holds the last stage of the six argument arrays. -/
theorem result_eq (c : Dev nD) :
    after (ops (F := Ideal)) (launchContents m c) (Proc.devRef .tc main_v93)
      = val_main_v93 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  host_read
  rfl

set_option maxHeartbeats 4000000 in
/-- Every weakly fair execution of the reference terminates with the result at the last stage of the arguments
    and the arguments unchanged. -/
theorem run : θ_run defs (onTc (τ := τ) (main (F := Ideal))) ⟨m, fun _ => 0, ρ⟩ fun r => ∀ c : Dev nD,
      r.2.mem ((c.tc : Thread nD τ).loc main_v93)
        = val_main_v93 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.lean ====
/-
  A two-layer graph convolutional network on 200000 nodes and 6.4 million directed edges, with log-softmax over two
  classes: a kernel program whose two dense products run as row-tiled matrix-unit kernels, against a reference
  whose dense products are whole-array host operations. Over the exact extended reals the two programs return the
  same array.

  Each graph convolution of node features h with weight W and bias b is, per node i,
      sum over the edges e into i of  w(e) · (h · W)[source e]  +  s(i) · (h · W)[i]  +  b,
  where deg(i) is one plus the number of edges into i, w(e) = deg(source e)^(-1/2) · deg(target e)^(-1/2) and
  s(i) = deg(i)^(-1/2) · deg(i)^(-1/2). Both programs compute the degrees by a scatter-add of ones, the gathers,
  the scalings, the scatter-add of the messages, relu and log-softmax by the same host operations in the same order,
  so these parts are the same function and no law of arithmetic is needed for them; the kernel computes the weights
  once and the reference once per layer, by the same operations of the same edge list. The one difference is the
  dense product h · W. The kernel computes it 20000 rows at a time, each block a product on the matrix unit into a
  zero accumulator after a cast to bf16, which is the identity on exact numbers; a row of a product depends on the
  same row of the left operand only, and the ten blocks tile the 200000 rows, so the kernel's array is the whole
  product: entry (r, q) is the sum over k of h[r, k] · W[k, q], which is what the reference's dot_general is.
  Nothing here needs the inputs to be finite.

  The modules: Linear1 and Linear2 (each pallas_call's result array is the whole product, over LibPlainMatmul and
  LibMatProduct), KernelRun (the kernel program's run with the returned array named), Carried (the source and
  target lists and the two kinds of weights, computed before the first call and unchanged when read again), Layers
  (the kernel program's buffers at each boundary are the reference's stages), ReferenceRun (the reference's run
  ends at its last stage; HostRead and LibTRefRoundTrip compute a buffer after a list of host operations), RefRun
  and RefRead (the reference's operation list and its stages).
-/
import proofs.«155437_j11587821764812_1_alg».proof.Defs
import proofs.«155437_j11587821764812_1_alg».proof.Proof.Gen.Kernel
import proofs.«155437_j11587821764812_1_alg».proof.Proof.Gen.Kernel.Skeleton
import proofs.«155437_j11587821764812_1_alg».proof.Proof.Gen.Kernel.Launch
import proofs.«155437_j11587821764812_1_alg».proof.Proof.Gen.Kernel.Points
import proofs.«155437_j11587821764812_1_alg».proof.Proof.Gen.Kernel.Frame
import proofs.«155437_j11587821764812_1_alg».proof.Proof.Gen.KernelIdeal
import proofs.«155437_j11587821764812_1_alg».proof.Proof.Gen.KernelIdeal.Skeleton
import proofs.«155437_j11587821764812_1_alg».proof.Proof.Gen.KernelIdeal.Launch
import proofs.«155437_j11587821764812_1_alg».proof.Proof.Gen.KernelIdeal.Points
import proofs.«155437_j11587821764812_1_alg».proof.Proof.Gen.KernelIdeal.Frame
import proofs.«155437_j11587821764812_1_alg».proof.Proof.Gen.ReferenceIdeal
import proofs.«155437_j11587821764812_1_alg».proof.Proof.Gen.Pre_finite_inputs
import proofs.«155437_j11587821764812_1_alg».proof.Proof.KernelRun
import proofs.«155437_j11587821764812_1_alg».proof.Proof.Layers
import proofs.«155437_j11587821764812_1_alg».proof.Proof.ReferenceRun
import Idealize.ShloMosaic.Adequacy
import Idealize.ShloMosaic.Init

noncomputable section

namespace Cert.Proof

open Idealize.ShloMosaic Idealize.SL.Sem

/-- The kernel program as printed terminates and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the six arguments both programs end with the reference's last stage of those
    arguments in their result arrays: the kernel program by walking its segments, the reference by its run. -/
theorem algebraic : Cert.algebraic_KernelIdeal_ReferenceIdeal := by
  intro m ρ m' ρ' _ hagree
  refine ⟨fun c => Cert.ReferenceIdeal.ReadP.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.W7_result m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.RefValue.run m' ρ')
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
